-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 10
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .bf16⟩
  | .hbm, ⟨6, _⟩ => ⟨S4096, .f32⟩
  | .hbm, ⟨7, _⟩ => ⟨S1x4096, .f32⟩
  | .hbm, ⟨8, _⟩ => ⟨S8192x4096, .bf16⟩
  | .hbm, ⟨9, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S4096x4096_S4096x4096_1_0 : S4096x4096.Transposes [1, 0] S4096x4096
  bitsLt_bf16_f32 : FTy.bits .bf16 < FTy.bits .f32
  bcast_S4096_S1x4096_1 : S4096.BroadcastsInDim S1x4096 (![1] : Fin 1 → Fin S1x4096.rank)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v5) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Payload.lean ====
/-
  What the kernel's body stores, read at one entry of the output block.

  At a grid point the body holds a 512 × 4096 block `a` of the rows, a 4096 × 1024 block `w` of the (already
  transposed, already binarized) weights and a 1 × 1024 block `r` of the bias row, and stores

      (a · w)[p, q] + r[0, q]        (p < 512, q < 1024)

  where the product accumulates into zero. On the extended reals the product into a zero accumulator is the plain
  sum Σ_k a[p, k] · w[k, q] over the one contracted axis (k < 4096), the same-shape casts are the identity, and the
  bias row is repeated down the 512 rows. So the stored entry is  Σ_k a[p, k] · w[k, q] + r[0, q].
-/
import proofs.«148138_j29205777612937_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The left operand's row axis follows the output's rows … -/
theorem lhs_row (j : S512x1024.Idx) (κ : dot_S512x4096_S4096x1024_S512x1024_1_0_0_1_n_n.contr.Idx) :
    (dot_S512x4096_S4096x1024_S512x1024_1_0_0_1_n_n.lhsIdx j κ 0).val = (j 0).val := by
  unfold DotDims.lhsIdx
  rw [dif_neg (show ¬(0 : Fin S512x4096.rank) ∈ dot_S512x4096_S4096x1024_S512x1024_1_0_0_1_n_n.lhsBatch by decide),
    dif_pos (show (0 : Fin S512x4096.rank) ∈ dot_S512x4096_S4096x1024_S512x1024_1_0_0_1_n_n.lhsNonContracting by decide)]
  rfl
/-- … and its column axis is the contracted one. -/
theorem lhs_col (j : S512x1024.Idx) (κ : dot_S512x4096_S4096x1024_S512x1024_1_0_0_1_n_n.contr.Idx) :
    (dot_S512x4096_S4096x1024_S512x1024_1_0_0_1_n_n.lhsIdx j κ 1).val = (κ ⟨0, by decide⟩).val :=
  dot_S512x4096_S4096x1024_S512x1024_1_0_0_1_n_n.lhsIdx_val_of_single rfl j κ
/-- The right operand's row axis is the contracted one … -/
theorem rhs_row (j : S512x1024.Idx) (κ : dot_S512x4096_S4096x1024_S512x1024_1_0_0_1_n_n.contr.Idx) :
    (dot_S512x4096_S4096x1024_S512x1024_1_0_0_1_n_n.rhsIdx j κ 0).val = (κ ⟨0, by decide⟩).val :=
  dot_S512x4096_S4096x1024_S512x1024_1_0_0_1_n_n.rhsIdx_val_of_single rfl j κ
/-- … and its column axis follows the output's columns. -/
theorem rhs_col (j : S512x1024.Idx) (κ : dot_S512x4096_S4096x1024_S512x1024_1_0_0_1_n_n.contr.Idx) :
    (dot_S512x4096_S4096x1024_S512x1024_1_0_0_1_n_n.rhsIdx j κ 1).val = (j 1).val := by
  unfold DotDims.rhsIdx
  rw [dif_neg (show ¬(1 : Fin S4096x1024.rank) ∈ dot_S512x4096_S4096x1024_S512x1024_1_0_0_1_n_n.rhsBatch by decide),
    dif_pos (show (1 : Fin S4096x1024.rank) ∈ dot_S512x4096_S4096x1024_S512x1024_1_0_0_1_n_n.rhsNonContracting by decide)]
  rfl

/-- The block product into a zero accumulator, at entry (p, q), is the sum over the contracted axis. -/
theorem product_at (a : FVec Ideal S512x4096 .bf16) (w : FVec Ideal S4096x1024 .bf16) (p : Fin 512) (q : Fin 1024) :
    matmul dot_S512x4096_S4096x1024_S512x1024_1_0_0_1_n_n none a w (constant (F := Ideal) S512x1024 .f32 0x00000000#32) (ix2 p q)
      = ∑ k : Fin 4096, a (ix2 p k) * w (ix2 k q) := by
  simp only [matmul]
  rw [Ideal.matmul_constant_zero_apply,
    ← Equiv.sum_comp (contrEquiv1 dot_S512x4096_S4096x1024_S512x1024_1_0_0_1_n_n 4096 rfl rfl).symm]
  refine Finset.sum_congr rfl fun k _ => ?_
  have hk := contrEquiv1_symm_val dot_S512x4096_S4096x1024_S512x1024_1_0_0_1_n_n 4096 rfl rfl k
  have el : dot_S512x4096_S4096x1024_S512x1024_1_0_0_1_n_n.lhsIdx (ix2 p q)
      ((contrEquiv1 dot_S512x4096_S4096x1024_S512x1024_1_0_0_1_n_n 4096 rfl rfl).symm k) = ix2 p k :=
    funext fun ax => Fin.ext (by
      match ax with
      | ⟨0, _⟩ => exact lhs_row _ _
      | ⟨1, _⟩ => exact (lhs_col _ _).trans hk)
  have er : dot_S512x4096_S4096x1024_S512x1024_1_0_0_1_n_n.rhsIdx (ix2 p q)
      ((contrEquiv1 dot_S512x4096_S4096x1024_S512x1024_1_0_0_1_n_n 4096 rfl rfl).symm k) = ix2 k q :=
    funext fun ax => Fin.ext (by
      match ax with
      | ⟨0, _⟩ => exact (rhs_row _ _).trans hk
      | ⟨1, _⟩ => exact rhs_col _ _)
  rw [el, er]

/-- THE STORED ENTRY: the product's sum plus the bias row's entry of that column. -/
theorem stored_at (a : FVec Ideal S512x4096 .bf16) (w : FVec Ideal S4096x1024 .bf16) (r : FVec Ideal S1x1024 .f32)
    (p : Fin 512) (q : Fin 1024) :
    k0_pay1 (F := Ideal) a w r (ix2 p q) = (∑ k : Fin 4096, a (ix2 p k) * w (ix2 k q)) + r (ix2 (0 : Fin 1) q) := by
  unfold k0_pay1
  rw [shapeCast_self, shapeCast_self, shapeCast_self, addf_apply, product_at,
    broadcastTo_1b_ab_apply]

end Cert.KernelIdeal.Body

end
-- ==== Proof.Spec.lean ====
/-
  A linear layer whose weight and bias are replaced by their signs, as ONE function of its three argument arrays,
  index by index, on the extended reals:

      out[n, o] = Σ_k x[n, k] · sign(W[o, k]) + sign(b[o])        (n < 8192, k < 4096, o < 4096).

  `layer` is that function. `affine` is the same sum written over three arrays that are already laid out for a
  plain rows-times-columns product: A[n, k], B[k, o] and a one-row C[0, o],

      affine A B C [n, o] = Σ_k A[n, k] · B[k, o] + C[0, o],

  so that `layer x W b = affine x B C` whenever B[k, o] = sign(W[o, k]) and C[0, o] = sign(b[o]). Nothing here
  needs the entries to be finite: only sums and products of extended reals are written, never rearranged.
-/
import Idealize.ShloMosaic.PureOps.Ideal
import Idealize.ShloMosaic.Lib.ValueIdx

noncomputable section

open scoped BigOperators

namespace Cert.SignLinear

open Idealize.ShloMosaic Idealize.ShloMosaic.ValueIdx

/-- The layer at row `n` and output column `o`. -/
def layerAt (x : (⟨2, ![8192, 4096]⟩ : Shape).Idx → EReal) (w : (⟨2, ![4096, 4096]⟩ : Shape).Idx → EReal)
    (b : (⟨1, ![4096]⟩ : Shape).Idx → EReal) (n : Fin 8192) (o : Fin 4096) : EReal :=
  (∑ k : Fin 4096, x (ix2 n k) * Ideal.sign (w (ix2 o k))) + Ideal.sign (b (ix1 o))

/-- The layer as a whole array. -/
def layer (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => layerAt x w b (i 0) (i 1)

/-- Rows times columns plus a row, at row `n` and column `o`. -/
def affineAt (A : (⟨2, ![8192, 4096]⟩ : Shape).Idx → EReal) (B : (⟨2, ![4096, 4096]⟩ : Shape).Idx → EReal)
    (C : (⟨2, ![1, 4096]⟩ : Shape).Idx → EReal) (n : Fin 8192) (o : Fin 4096) : EReal :=
  (∑ k : Fin 4096, A (ix2 n k) * B (ix2 k o)) + C (ix2 (0 : Fin 1) o)

/-- Rows times columns plus a row, as a whole array. -/
def affine (A : (⟨2, ![8192, 4096]⟩ : Shape).Idx → EReal) (B : (⟨2, ![4096, 4096]⟩ : Shape).Idx → EReal)
    (C : (⟨2, ![1, 4096]⟩ : Shape).Idx → EReal) : (⟨2, ![8192, 4096]⟩ : Shape).Idx → EReal :=
  fun i => affineAt A B C (i 0) (i 1)

/-- When B is the sign of W transposed and C is the sign of b as one row, the product form is the layer. -/
theorem affine_eq_layer (x : (⟨2, ![8192, 4096]⟩ : Shape).Idx → EReal) (w : (⟨2, ![4096, 4096]⟩ : Shape).Idx → EReal)
    (b : (⟨1, ![4096]⟩ : Shape).Idx → EReal) (B : (⟨2, ![4096, 4096]⟩ : Shape).Idx → EReal)
    (C : (⟨2, ![1, 4096]⟩ : Shape).Idx → EReal)
    (hB : ∀ (k o : Fin 4096), B (ix2 k o) = Ideal.sign (w (ix2 o k)))
    (hC : ∀ o : Fin 4096, C (ix2 (0 : Fin 1) o) = Ideal.sign (b (ix1 o))) :
    affine x B C = layer x w b := by
  funext i
  obtain ⟨n, o, rfl⟩ : ∃ (n : Fin 8192) (o : Fin 4096), i = ix2 n o := ⟨i 0, i 1, eq_ix2 i⟩
  show affineAt x B C n o = layerAt x w b n o
  unfold affineAt layerAt
  rw [hC o]
  exact congrArg (· + Ideal.sign (b (ix1 o))) (Finset.sum_congr rfl fun k _ => by rw [hB k o])

end Cert.SignLinear

end
-- ==== Proof.Staged.lean ====
/-
  The three arrays the kernel's windows stage, read at an entry.

  Before the kernel is launched the program prepares its operands from the arguments x, W, b:
    · the rows array is x with its format narrowed, which on the extended reals changes nothing:  A[n, k] = x[n, k];
    · the weights array is W transposed, then its sign taken entrywise, then narrowed:            B[k, o] = sign(W[o, k]);
    · the bias row is the sign of b laid out as one row:                                          C[0, o] = sign(b[o]).
  Hence rows-times-columns-plus-row of these three arrays is the layer of x, W, b.
-/
import proofs.«148138_j29205777612937_2_alg».proof.Proof.Gen.KernelIdeal.Frame
import proofs.«148138_j29205777612937_2_alg».proof.Proof.Spec
import Idealize.ShloMosaic.Lib.ValueLayout
import Idealize.ShloMosaic.Lib.StableHlo.Run

noncomputable section

open scoped BigOperators

namespace Cert.KernelIdeal.Staged

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The rows array is x. -/
theorem rows_staged (c : Dev nD) :
    (V m c main_v5 : S8192x4096.Idx → EReal) = (m ((c : Thread nD τ).loc main_arg0) : S8192x4096.Idx → EReal) := by
  dsimp only [Gen.V, Gen.hostOps0]; after_results; rfl

/-- The weights array is the entrywise sign of W transposed. -/
theorem weights_staged (c : Dev nD) :
    (V m c main_v2 : S4096x4096.Idx → EReal)
      = fun i => Ideal.sign (transpose S4096x4096 [1, 0] (m ((c : Thread nD τ).loc main_arg1) : S4096x4096.Idx → EReal)
          transposes_S4096x4096_S4096x4096_1_0 i) := by
  dsimp only [Gen.V, Gen.hostOps0]; after_results; rfl

/-- The bias row is the entrywise sign of b, as one row. -/
theorem bias_staged (c : Dev nD) :
    (V m c main_v4 : S1x4096.Idx → EReal)
      = broadcastInDim S1x4096 ![1] bcast_S4096_S1x4096_1
          (fun i => Ideal.sign ((m ((c : Thread nD τ).loc main_arg2) : S4096.Idx → EReal) i)) := by
  dsimp only [Gen.V, Gen.hostOps0]; after_results; rfl

/-- B[k, o] = sign(W[o, k]). -/
theorem weights_at (c : Dev nD) (k o : Fin 4096) :
    (V m c main_v2 : S4096x4096.Idx → EReal) (ix2 k o)
      = Ideal.sign ((m ((c : Thread nD τ).loc main_arg1) : S4096x4096.Idx → EReal) (ix2 o k)) := by
  rw [weights_staged m c]
  exact congrArg Ideal.sign (transpose_ix2_apply _ transposes_S4096x4096_S4096x4096_1_0 k o)

/-- C[0, o] = sign(b[o]). -/
theorem bias_at (c : Dev nD) (o : Fin 4096) :
    (V m c main_v4 : S1x4096.Idx → EReal) (ix2 (0 : Fin 1) o)
      = Ideal.sign ((m ((c : Thread nD τ).loc main_arg2) : S4096.Idx → EReal) (ix1 o)) := by
  rw [bias_staged m c]
  exact broadcastInDim_apply _ bcast_S4096_S1x4096_1 _ (ix2 (0 : Fin 1) o) (ix1 o) (fun a => match a with
    | ⟨0, _⟩ => by show o.val = if (4096 : Nat) = 1 then 0 else o.val; rw [if_neg (by decide)])

/-- THE STAGED ARRAYS' PRODUCT FORM IS THE LAYER of the arguments. -/
theorem staged_is_layer (c : Dev nD) :
    Cert.SignLinear.affine (V m c main_v5) (V m c main_v2) (V m c main_v4)
      = Cert.SignLinear.layer (m ((c : Thread nD τ).loc main_arg0)) (m ((c : Thread nD τ).loc main_arg1))
          (m ((c : Thread nD τ).loc main_arg2)) :=
  (congrArg (fun A => Cert.SignLinear.affine A (V m c main_v2) (V m c main_v4)) (rows_staged m c)).trans
    (Cert.SignLinear.affine_eq_layer _ _ _ _ _ (weights_at m c) (bias_at m c))

end Cert.KernelIdeal.Staged

end
-- ==== Proof.Blocks.lean ====
/-
  From what each grid point writes back to the whole output array.

  The grid has 4 × 16 points. The point with coordinates (s, r) (s < 4 outer, r < 16 inner) works on
    · rows      512·r … 512·r + 511   of the rows array      (all 4096 columns),
    · columns  1024·s … 1024·s + 1023 of the weights array   (all 4096 rows),
    · columns  1024·s … 1024·s + 1023 of the one-row bias,
  and writes the 512 × 1024 block of the output at rows 512·r …, columns 1024·s …. An entry (p, q) of that block
  therefore sits at (N, O) = (512·r + p, 1024·s + q) of the output, and what the body stores there,

      Σ_k a[p, k] · w[k, q] + r[0, q],

  reads the three arrays at (N, k), (k, O) and (0, O): it is the entry (N, O) of rows-times-columns-plus-row of the
  three WHOLE arrays. So every point writes back its own block of one whole-array function; the 64 blocks cover the
  8192 × 4096 output (the block of (N, O) is the one with r = N / 512, s = O / 1024); hence the output array ends
  holding that function, which is the layer of the arguments.
-/
import proofs.«148138_j29205777612937_2_alg».proof.Proof.Gen.KernelIdeal.Value
import proofs.«148138_j29205777612937_2_alg».proof.Proof.Payload
import proofs.«148138_j29205777612937_2_alg».proof.Proof.Staged
import proofs.«148138_j29205777612937_2_alg».proof.Proof.Spec

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the block's corner. -/
theorem corner : (![0, 0] : Fin 2 → Nat) = fun _ => 0 := funext fun a => by fin_cases a <;> rfl

/-- How the three input blocks move with the output block, over the 64 points: the rows block shares the output's
    row-block number and spans all columns; the weights block and the bias block share the output's column-block
    number and span all rows; the output's block numbers stay below 16 and 4. -/
theorem block_numbers : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every one of the 16 × 4 output blocks is some point's. -/
theorem every_block : ∀ (r : Fin 16) (s : Fin 4), ∃ t : Fin cfg0.N, win0_3.index t = ![r.val, s.val] :=
  (by decide +kernel : ∀ (r : Fin 16) (s : Fin 4), ∃ t : Fin grid0.N, win0_3.index t = ![r.val, s.val])

/-! ## The input blocks, read where the output entry says -/

/-- Entry (p, k) of the point's rows block is entry (N, k) of the rows array, N the output entry's row. -/
theorem rows_block (c : Dev nD) (t : Fin cfg0.N) (p : Fin 512) (k : Fin 4096) (N : Fin 8192)
    (hN : N.val = win0_3.index t (0 : Fin 2) * 512 + p.val) :
    iblk m c 0 t (ix2 p k) = (V m c main_v5 : S8192x4096.Idx → EReal) (ix2 N k) := by
  obtain ⟨e0, e1, -⟩ := block_numbers t
  show (V m c main_v5 : S8192x4096.Idx → EReal) (((cfg0.win 0).blk t).view.emb (ix2 p k)) = _
  refine congrArg (V m c main_v5 : S8192x4096.Idx → EReal) (funext fun a => Fin.ext ?_)
  match a with
  | ⟨0, _⟩ => show win0_0.index t (0 : Fin 2) * 512 + 1 * p.val = N.val; omega
  | ⟨1, _⟩ => show win0_0.index t (1 : Fin 2) * 4096 + 1 * k.val = k.val; omega

/-- Entry (k, q) of the point's weights block is entry (k, O) of the weights array, O the output entry's column. -/
theorem weights_block (c : Dev nD) (t : Fin cfg0.N) (k : Fin 4096) (q : Fin 1024) (O : Fin 4096)
    (hO : O.val = win0_3.index t (1 : Fin 2) * 1024 + q.val) :
    iblk m c 1 t (ix2 k q) = (V m c main_v2 : S4096x4096.Idx → EReal) (ix2 k O) := by
  obtain ⟨-, -, e2, e3, -⟩ := block_numbers t
  show (V m c main_v2 : S4096x4096.Idx → EReal) (((cfg0.win 1).blk t).view.emb (ix2 k q)) = _
  refine congrArg (V m c main_v2 : S4096x4096.Idx → EReal) (funext fun a => Fin.ext ?_)
  match a with
  | ⟨0, _⟩ => show win0_1.index t (0 : Fin 2) * 4096 + 1 * k.val = k.val; omega
  | ⟨1, _⟩ => show win0_1.index t (1 : Fin 2) * 1024 + 1 * q.val = O.val; omega

/-- Entry (0, q) of the point's bias block is entry (0, O) of the bias row. -/
theorem bias_block (c : Dev nD) (t : Fin cfg0.N) (q : Fin 1024) (O : Fin 4096)
    (hO : O.val = win0_3.index t (1 : Fin 2) * 1024 + q.val) :
    iblk m c 2 t (ix2 (0 : Fin 1) q) = (V m c main_v4 : S1x4096.Idx → EReal) (ix2 (0 : Fin 1) O) := by
  obtain ⟨-, -, -, -, e4, e5, -⟩ := block_numbers t
  show (V m c main_v4 : S1x4096.Idx → EReal) (((cfg0.win 2).blk t).view.emb (ix2 (0 : Fin 1) q)) = _
  refine congrArg (V m c main_v4 : S1x4096.Idx → EReal) (funext fun a => Fin.ext ?_)
  match a with
  | ⟨0, _⟩ => show win0_2.index t (0 : Fin 2) * 1 + 1 * 0 = 0; omega
  | ⟨1, _⟩ => show win0_2.index t (1 : Fin 2) * 1024 + 1 * q.val = O.val; omega

/-! ## What a point writes back -/

/-- WHAT POINT `t` WRITES BACK is its block of rows-times-columns-plus-row of the three staged arrays. -/
theorem flushed_eq (c : Dev nD) (t : Fin cfg0.N) :
    (dats m 0 c).flushed 3 t = ((cfg0.win 3).blk t).view.read (Elt Ideal)
      (Cert.SignLinear.affine (V m c main_v5) (V m c main_v2) (V m c main_v4)) := by
  rw [Value.flushed3]
  unfold out0_3
  rw [View.canon_unit_zero corner]
  simp only [View.ld_unit_zero (S := S512x4096) corner, View.ld_unit_zero (S := S4096x1024) corner,
    View.ld_unit_zero (S := S1x1024) corner]
  obtain ⟨-, -, -, -, -, -, e6, e7⟩ := block_numbers t
  funext j
  obtain ⟨p, q, rfl⟩ : ∃ (p : Fin 512) (q : Fin 1024), j = ix2 p q := ⟨j 0, j 1, eq_ix2 j⟩
  have hp : p.val < 512 := p.isLt
  have hq : q.val < 1024 := q.isLt
  -- the output entry's place in the whole array
  have hplace : ((cfg0.win 3).blk t).view.emb (ix2 p q)
      = (ix2 (⟨win0_3.index t (0 : Fin 2) * 512 + p.val, by omega⟩ : Fin 8192)
          (⟨win0_3.index t (1 : Fin 2) * 1024 + q.val, by omega⟩ : Fin 4096) : S8192x4096.Idx) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega
  show k0_pay1 (F := Ideal) (iblk m c 0 t) (iblk m c 1 t) (iblk m c 2 t) (ix2 p q)
    = Cert.SignLinear.affine (V m c main_v5) (V m c main_v2) (V m c main_v4) (((cfg0.win 3).blk t).view.emb (ix2 p q))
  rw [hplace]
  show _ = Cert.SignLinear.affineAt (V m c main_v5) (V m c main_v2) (V m c main_v4)
    (⟨win0_3.index t (0 : Fin 2) * 512 + p.val, by omega⟩ : Fin 8192)
    (⟨win0_3.index t (1 : Fin 2) * 1024 + q.val, by omega⟩ : Fin 4096)
  refine (Body.stored_at _ _ _ p q).trans ?_
  unfold Cert.SignLinear.affineAt
  exact congrArg₂ (· + ·)
    (Finset.sum_congr rfl fun k _ => congrArg₂ (· * ·) (rows_block m c t p k _ rfl) (weights_block m c t k q _ rfl))
    (bias_block m c t q _ rfl)

/-! ## The blocks cover the array -/

/-- An entry of the output is in point `t`'s block iff each coordinate is in the block's range on its axis. -/
theorem mem_block (t : Fin cfg0.N) (i : S8192x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v6).slice (win0_3.rect t)).set ↔ _
  rw [View.set_slice_whole, Rect.mem_set_unit]
  exact Iff.rfl

/-- Every entry (N, O) of the output is in the block numbered (N / 512, O / 1024), and that block is written back. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := every_block ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-! ## The whole array, and the run -/

/-- THE OUTPUT ARRAY after the run is the layer of the argument arrays. -/
theorem final (c : Dev nD) :
    (dats m 0 c).arrAt 3 cfg0.N
      = Cert.SignLinear.layer (m ((c : Thread nD τ).loc main_arg0)) (m ((c : Thread nD τ).loc main_arg1))
          (m ((c : Thread nD τ).loc main_arg2)) :=
  ((dats m 0 c).arrAt_eq_of_cover 3 _ (fun t _ => flushed_eq m c t) covered).trans (Staged.staged_is_layer m c)

/-- The kernel's run: it terminates, its result is the layer of its arguments, and its arguments are unchanged. -/
theorem run : θ_run defs (onTc (τ := τ) (main (F := Ideal))) ⟨m, fun _ => 0, ρ⟩ fun r => ∀ c : Dev nD,
      r.2.mem ((c : Thread nD τ).loc main_v6)
        = Cert.SignLinear.layer (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefIsLayer.lean ====
/-
  The reference computes the layer.

  The reference takes the sign of W and of b entrywise, contracts x[n, ·] against sign(W)[o, ·] over their shared
  second axis, repeats sign(b) down the rows and adds. Read at the entry (n, o), one operation at a time, that is

      Σ_k x[n, k] · sign(W[o, k]) + sign(b[o]),

  which is `layer` by definition: the contraction's two operand indices at position k are (n, k) and (o, k), and
  the bias's two broadcasts read column o of the vector.
-/
import proofs.«148138_j29205777612937_2_alg».proof.Proof.Gen.ReferenceIdeal.Read
import proofs.«148138_j29205777612937_2_alg».proof.Proof.Spec

noncomputable section

open scoped BigOperators

namespace Cert.ReferenceIdeal.RefValue

open Cert.ReferenceIdeal Cert.ReferenceIdeal.Read Idealize.ShloMosaic Idealize.ShloMosaic.ValueIdx

/-- The reference's result, as a function of its three arguments, is the layer. -/
theorem reference_is_layer (x0 : (⟨S8192x4096, .f32⟩ : BufTy).Contents (Elt Ideal))
    (x1 : (⟨S4096x4096, .f32⟩ : BufTy).Contents (Elt Ideal)) (x2 : (⟨S4096, .f32⟩ : BufTy).Contents (Elt Ideal)) :
    val_main_v5 (F := Ideal) x0 x1 x2 = Cert.SignLinear.layer x0 x1 x2 := by
  funext i
  obtain ⟨n, o, rfl⟩ : ∃ (n : Fin 8192) (o : Fin 4096), i = ix2 n o := ⟨i 0, i 1, eq_ix2 i⟩
  -- the contraction's operand indices, and the bias's index through its two broadcasts
  have el : ∀ k : Fin 4096, lidx_main_v2 (ix2 n o) k = ix2 n k := fun k =>
    funext fun a => Fin.ext (by match a with | ⟨0, _⟩ => rfl | ⟨1, _⟩ => rfl)
  have er : ∀ k : Fin 4096, ridx_main_v2 (ix2 n o) k = ix2 o k := fun k =>
    funext fun a => Fin.ext (by match a with | ⟨0, _⟩ => rfl | ⟨1, _⟩ => rfl)
  have eb : idx_main_v3 (idx_main_v4 (ix2 n o)) = ix1 o :=
    funext fun a => Fin.ext (by match a with | ⟨0, _⟩ => rfl)
  rw [val_main_v5_apply, val_main_v2_apply, val_main_v4_apply, val_main_v3_apply, val_main_v1_apply]
  simp only [el, er, eb, val_main_v0_apply, Ideal.addf_def, Ideal.hostUnary_sign_def]
  rfl

end Cert.ReferenceIdeal.RefValue

end
-- ==== Proof.lean ====
/-
  A linear layer with sign-binarized weight and bias: the kernel against its reference, on the extended reals.

  Both programs compute, for x : 8192 × 4096, W : 4096 × 4096, b : 4096,

      out[n, o] = Σ_k x[n, k] · sign(W[o, k]) + sign(b[o]).

  The reference takes the signs, contracts x against sign(W) over their shared second axis and adds the bias row
  (Proof/RefIsLayer.lean). The kernel's program first prepares three arrays — x with its format narrowed (no change on
  the extended reals), sign(Wᵀ), and sign(b) as one row (Proof/Staged.lean) — and then runs a 4 × 16 grid whose
  point multiplies a 512 × 4096 block of rows by a 4096 × 1024 block of columns into a zero accumulator and adds
  the bias row's block (Proof/Payload.lean); each point writes its own 512 × 1024 block of ONE whole-array function,
  and the 64 blocks cover the output (Proof/Blocks.lean). That function is the layer (Proof/Spec.lean), so the two
  results agree entry by entry. Only the definition of the product as a sum over the contracted axis is used, never
  a rearrangement of sums or a distributive law, so no entry needs to be finite and the precondition is not opened.

  The three frames are the programs' runs with the result dropped; the kernel's idealization rewrote nothing, so
  there is nothing to preserve.
-/
import proofs.«148138_j29205777612937_2_alg».proof.Defs
import proofs.«148138_j29205777612937_2_alg».proof.Proof.Gen.Kernel
import proofs.«148138_j29205777612937_2_alg».proof.Proof.Gen.Kernel.Skeleton
import proofs.«148138_j29205777612937_2_alg».proof.Proof.Gen.Kernel.Launch
import proofs.«148138_j29205777612937_2_alg».proof.Proof.Gen.Kernel.Points
import proofs.«148138_j29205777612937_2_alg».proof.Proof.Gen.Kernel.Frame
import proofs.«148138_j29205777612937_2_alg».proof.Proof.Gen.KernelIdeal
import proofs.«148138_j29205777612937_2_alg».proof.Proof.Gen.KernelIdeal.Skeleton
import proofs.«148138_j29205777612937_2_alg».proof.Proof.Gen.KernelIdeal.Launch
import proofs.«148138_j29205777612937_2_alg».proof.Proof.Gen.KernelIdeal.Points
import proofs.«148138_j29205777612937_2_alg».proof.Proof.Gen.KernelIdeal.Frame
import proofs.«148138_j29205777612937_2_alg».proof.Proof.Gen.ReferenceIdeal
import proofs.«148138_j29205777612937_2_alg».proof.Proof.Gen.Pre_finite_inputs
import proofs.«148138_j29205777612937_2_alg».proof.Proof.Gen.KernelIdeal.Value
import proofs.«148138_j29205777612937_2_alg».proof.Proof.Gen.ReferenceIdeal.Run
import proofs.«148138_j29205777612937_2_alg».proof.Proof.Gen.ReferenceIdeal.Read
import proofs.«148138_j29205777612937_2_alg».proof.Proof.Blocks
import proofs.«148138_j29205777612937_2_alg».proof.Proof.RefIsLayer
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result and the reference's result are both the layer of those arguments. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v5_eq _ _ _).trans (Cert.ReferenceIdeal.RefValue.reference_is_layer _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
